-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : IVec S16384 32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x1024 : Shape := ⟨2, ![16384, 1024]⟩
abbrev S16384 : Shape := ⟨1, ![16384]⟩
abbrev S1000x1024 : Shape := ⟨2, ![1000, 1024]⟩
abbrev S32x1x512 : Shape := ⟨3, ![32, 1, 512]⟩
abbrev S_ : Shape := ⟨0, ![]⟩
abbrev S1024x1024 : Shape := ⟨2, ![1024, 1024]⟩
abbrev S1x1 : Shape := ⟨2, ![1, 1]⟩
abbrev S1x1x512 : Shape := ⟨3, ![1, 1, 512]⟩
abbrev S512x1024 : Shape := ⟨2, ![512, 1024]⟩
abbrev S1024x128 : Shape := ⟨2, ![1024, 128]⟩
abbrev S1x512 : Shape := ⟨2, ![1, 512]⟩
abbrev S1024x512 : Shape := ⟨2, ![1024, 512]⟩
abbrev S512 : Shape := ⟨1, ![512]⟩
abbrev S512x1 : Shape := ⟨2, ![512, 1]⟩
abbrev S512x128 : Shape := ⟨2, ![512, 128]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S32x1x512, .i32⟩
  | .hbm, ⟨4, _⟩ => ⟨S_, .i32⟩
  | .hbm, ⟨5, _⟩ => ⟨S_, .f32⟩
  | .hbm, ⟨6, _⟩ => ⟨S1024x1024, .f32⟩
  | .hbm, ⟨7, _⟩ => ⟨S1x1, .f32⟩
  | .hbm, ⟨8, _⟩ => ⟨S_, .f32⟩
  | .local _ .vmem, ⟨0, _⟩ => ⟨S1x1x512, .i32⟩
  | .local _ .vmem, ⟨1, _⟩ => ⟨S1x1x512, .i32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1, .f32⟩
  | .local _ .vmem, ⟨6, _⟩ => ⟨S1024x1024, .f32⟩
  | .local _ .vmem, ⟨7, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_18 : BitVec 32 := 0#32
  let v41 : BitVec 1 := Scalar.cmpi .ne v40 c0_i32_18
  v41

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384_S32x1x512 : S16384.ShapeCasts S32x1x512
  pads_S1000x1024_S1024x1024_0240_000 : S1000x1024.Pads (![0, 0] : Fin 2 → Nat) ![24, 0] ![0, 0] S1024x1024
  h_S_ : 0 < S_.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S1024x512_d0_w32 : S1024x512.Iotas .tc 32 [0]
  broadcasts_S1x512_S1024x512 : S1x512.Broadcasts S1024x512
  natLt_1_32 : 1 < 32
  bitsLt_bf16_f32 : FTy.bits .bf16 < FTy.bits .f32
  reduces_S512x1024_S512 : S512x1024.Reduces [1] S512
  shapeCasts_S512_S512x1 : S512.ShapeCasts S512x1
  iota_S512x128_d1_w32 : S512x128.Iotas .tc 32 [1]
  shapeCasts_S512x1_S512x1 : S512x1.ShapeCasts S512x1
  broadcasts_S512x1_S512x128 : S512x1.Broadcasts S512x128
  inb_S1024x128_S1024x1_0_0 : ∀ a, (![0, 0] : Fin 2 → Nat) a + S1024x1.size a ≤ S1024x128.size a
  h_S1024x1 : 0 < S1024x1.numel
  inb_S1024x128_S1024x1_0_1 : ∀ a, (![0, 1] : Fin 2 → Nat) a + S1024x1.size a ≤ S1024x128.size a
  reduces_S1024x1024_S1024 : S1024x1024.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x512_S512x1024_S1024x1024_1_0_0_1_n_n_wf : DotDims.WF S1024x512 S512x1024 S1024x1024 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S32x1x512.size a
  hwx0_0 : ∀ i : grid0.Coords, EltTy.bits .i32 = 32 ∨ (Rect.block (s := S32x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1000 : Shape := ⟨1, ![1000]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x1024, .f32⟩
  | .hbm, ⟨22, _⟩ => ⟨S16384x1024, .i1⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S1000, .f32⟩
  | .hbm, ⟨32, _⟩ => ⟨S16384x1, .i32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .i1⟩
  | .hbm, ⟨37, _⟩ => ⟨S_, .f32⟩
  | .hbm, ⟨38, _⟩ => ⟨S_, .f32⟩
  | .hbm, ⟨39, _⟩ => ⟨S1000, .f32⟩
  | .hbm, ⟨40, _⟩ => ⟨S1000, .f32⟩
  | .hbm, ⟨41, _⟩ => ⟨S_, .f32⟩
  | .hbm, ⟨42, _⟩ => ⟨S1000, .f32⟩
  | .hbm, ⟨43, _⟩ => ⟨S1000, .i1⟩
  | .hbm, ⟨44, _⟩ => ⟨S1000, .f32⟩
  | .hbm, ⟨45, _⟩ => ⟨S_, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v9 : Ref sig .tc := ⟨.hbm, 40, rfl⟩
abbrev main_cst_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_cst_6 : Ref sig .tc := ⟨.hbm, 51, rfl⟩
abbrev main_v15 : Ref sig .tc := ⟨.hbm, 52, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  reducesTo_S16384x1024_S16384_d1 : S16384x1024.ReducesTo [1] S16384
  bcast_S_S1000 : S_.BroadcastsInDim S1000 (![] : Fin 0 → Fin S1000.rank)
  reducesTo_S1000_S_d0 : S1000.ReducesTo [0] S_
  gather_S1000x1024_S16384x1_S16384x1024_1_0_n_n_0_1_11024_wf : GatherDims.WF S1000x1024 S16384x1 S16384x1024 [1] [0] [] [0] [] 1 ![1, 1024]
  scatter_S1000_S16384x1_S16384_n_0_0_1_wf : ScatterDims.WF S1000 S16384x1 S16384 [] [0] [0] 1

variable [Facts₀]

def gather_S1000x1024_S16384x1_S16384x1024_1_0_n_n_0_1_11024 : GatherDims S1000x1024 S16384x1 S16384x1024 where
  offsetDims := [1]
  collapsedSliceDims := [0]
  operandBatchingDims := []
  startIndicesBatchingDims := []
  startIndexMap := [0]
  indexVectorDim := 1
  sliceSizes := ![1, 1024]
  wf := gather_S1000x1024_S16384x1_S16384x1024_1_0_n_n_0_1_11024_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

class Facts : Prop extends Facts₀ where

variable [Facts]
-- ==== Proof.KerPieces.lean ====
import proofs.«159336_g120259084421_cont_main3_733_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

/-! What one run of the body leaves behind, case by case, as the body's own arithmetic of the blocks it was given.

The body keeps two accumulators between grid points: the per-class sums of rows (1024 × 1024) and the per-class
sums of squared norms and counts (1024 × 128, of which columns 0 and 1 are used). At the first point it zeroes both
before adding the point's contribution; at every later point it adds to what the point before left; at the last
point it also computes the loss from the updated accumulators and the centres and stores it. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The row-sum accumulator after a point: the accumulator before it plus the one-hot rows of the point's labels
    times the point's block of the batch. -/
abbrev stepS (lab : Vec F S1x1x512 .i32) (x : Vec F S512x1024 .f32) (s : Vec F S1024x1024 .f32) : Vec F S1024x1024 .f32 :=
  k0_pay6 x lab s
/-- The norm-and-count accumulator after a point. -/
abbrev stepA (lab : Vec F S1x1x512 .i32) (x : Vec F S512x1024 .f32) (a : Vec F S1024x128 .f32) : Vec F S1024x128 .f32 :=
  k0_pay1 (k0_pay7 x lab a)

/-- Columns 0 and 1 of the second accumulator, as the last point loads them: 1024 × 1 strips. -/
abbrev col0Of (a : Vec F S1024x128 .f32) : Vec F S1024x1 .f32 :=
  View.ld a (Rect.unit (s := S1024x128) ![0, 0] S1024x1.size inb_S1024x128_S1024x1_0_0)
abbrev col1Of (a : Vec F S1024x128 .f32) : Vec F S1024x1 .f32 :=
  View.ld a (Rect.unit (s := S1024x128) ![0, 1] S1024x1.size inb_S1024x128_S1024x1_0_1)

/-- First point, row sums: zeroed, then the step. -/
theorem sA0 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : cond0_0 i) (hc1 : ¬cond0_1 i) (x0 : Vec F S1x1x512 .i32) (x1 : Vec F S512x1024 .f32) (x2 : Vec F S1024x1024 .f32) :
    sout0_A_0 c i a1 h1 a2 h2 a3 h3 a4 h4 a5 h5 a6 h6 hc0 hc1 x0 x1 x2 = stepS x0 x1 k0_pay3 := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

/-- First point, norms and counts: zeroed, then the step. -/
theorem sA1 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : cond0_0 i) (hc1 : ¬cond0_1 i) (x0 : Vec F S1x1x512 .i32) (x1 : Vec F S512x1024 .f32) (x2 : Vec F S1024x1024 .f32) :
    sout0_A_1 c i a1 h1 a2 h2 a3 h3 a4 h4 a5 h5 a6 h6 hc0 hc1 x0 x1 x2 = stepA x0 x1 k0_pay4 := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1024x128) hz2, View.readCov_unit_zero (S := S1024x128) _ hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

/-- A middle point, row sums: the step over what the point before left. -/
theorem sB0 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : ¬cond0_0 i) (hc1 : ¬cond0_1 i) (x0 : Vec F S1x1x512 .i32) (x1 : Vec F S512x1024 .f32) (x2 : Vec F S1024x1024 .f32) (xs0 : Vec F S1024x1024 .f32) (xs1 : Vec F S1024x128 .f32) :
    sout0_B_0 c i a1 h1 a2 h2 a3 h3 a4 h4 a5 h5 a6 h6 hc0 hc1 x0 x1 x2 xs0 xs1 = stepS x0 x1 xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero (S := S1024x1024) hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

theorem sB1 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : ¬cond0_0 i) (hc1 : ¬cond0_1 i) (x0 : Vec F S1x1x512 .i32) (x1 : Vec F S512x1024 .f32) (x2 : Vec F S1024x1024 .f32) (xs0 : Vec F S1024x1024 .f32) (xs1 : Vec F S1024x128 .f32) :
    sout0_B_1 c i a1 h1 a2 h2 a3 h3 a4 h4 a5 h5 a6 h6 hc0 hc1 x0 x1 x2 xs0 xs1 = stepA x0 x1 xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero (S := S1024x128) hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

/-- The last point, row sums: the step, as at a middle point. -/
theorem sC0 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : ¬cond0_0 i) (hc1 : cond0_1 i) (x0 : Vec F S1x1x512 .i32) (x1 : Vec F S512x1024 .f32) (x2 : Vec F S1024x1024 .f32) (xs0 : Vec F S1024x1024 .f32) (xs1 : Vec F S1024x128 .f32) :
    sout0_C_0 c i a1 h1 a2 h2 a3 h3 a4 h4 a5 h5 a6 h6 hc0 hc1 x0 x1 x2 xs0 xs1 = stepS x0 x1 xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero (S := S1024x1024) hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

theorem sC1 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : ¬cond0_0 i) (hc1 : cond0_1 i) (x0 : Vec F S1x1x512 .i32) (x1 : Vec F S512x1024 .f32) (x2 : Vec F S1024x1024 .f32) (xs0 : Vec F S1024x1024 .f32) (xs1 : Vec F S1024x128 .f32) :
    sout0_C_1 c i a1 h1 a2 h2 a3 h3 a4 h4 a5 h5 a6 h6 hc0 hc1 x0 x1 x2 xs0 xs1 = stepA x0 x1 xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero (S := S1024x128) hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

end Cert.KernelIdeal.KerValue
end
-- ==== Proof.KerOut.lean ====
import proofs.«159336_g120259084421_cont_main3_733_4_alg».proof.Proof.KerPieces

set_option maxRecDepth 16384

noncomputable section

open Idealize.ShloMosaic Idealize.ShloMosaic.TcCoe Idealize.SL.Sem

/-! The last grid point's output block. After adding its own contribution to the two accumulators, the last point loads
the centres, the updated row sums, and columns 0 and 1 of the updated second accumulator, and stores the loss computed
from them; so the block it leaves is the loss formula applied to those four values. The two column loads read, through
a 1024 × 1 rectangle, what one whole-buffer store has just left. -/

namespace Idealize.ShloMosaic.View

variable {Val : EltTy → Type} {S : Shape} {e : EltTy}

/-- A load through ANY rectangle of what one whole-buffer store left reads the stored value through the rectangle. -/
theorem readCov_whole_piece [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : Piece Val S e)] r.toLoadRect = View.ld w r := by
  subst h
  rw [readCov_eq_canon_ld _ _ _ (fun y => ⟨_, List.mem_singleton_self _, mem_set_unit_zero rfl inb y⟩), canon_unit_zero rfl]

end Idealize.ShloMosaic.View

namespace Cert.KernelIdeal.KerValue

open Cert.KernelIdeal Cert.KernelIdeal.Gen

variable {F : FTy → Type} [FloatOps F]

/-- The last point's output block: the loss formula of the centres, the updated row sums, and columns 0 and 1 of the
    updated second accumulator. -/
theorem oC3 (c : Dev nD) (i : grid0.Coords) (a1 : Memref sig .tc .vmem S1x1x512 .i32) (h1 : a1.IsWhole) (a2 : Memref sig .tc .vmem S512x1024 .f32) (h2 : a2.IsWhole) (a3 : Memref sig .tc .vmem S1024x1024 .f32) (h3 : a3.IsWhole) (a4 : Memref sig .tc .vmem S1x1 .f32) (h4 : a4.IsWhole) (a5 : Memref sig .tc .vmem S1024x1024 .f32) (h5 : a5.IsWhole) (a6 : Memref sig .tc .vmem S1024x128 .f32) (h6 : a6.IsWhole) (hc0 : ¬cond0_0 i) (hc1 : cond0_1 i) (x0 : Vec F S1x1x512 .i32) (x1 : Vec F S512x1024 .f32) (x2 : Vec F S1024x1024 .f32) (xs0 : Vec F S1024x1024 .f32) (xs1 : Vec F S1024x128 .f32) :
    out0_C_3 c i a1 h1 a2 h2 a3 h3 a4 h4 a5 h5 a6 h6 hc0 hc1 x0 x1 x2 xs0 xs1
      = k0_pay2 x2 (stepS x0 x1 xs0) (col0Of (stepA x0 x1 xs1)) (col1Of (stepA x0 x1 xs1)) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero (S := S1x1) hz2, View.readCov_unit_zero (S := S1024x1024) _ hz2]
  rw [View.readCov_whole_piece (S := S1024x128) _ hz2, View.readCov_whole_piece (S := S1024x128) _ hz2]
  simp only [View.readAt_eq_ld, h1.read_unread, h2.read_unread, h3.read_unread, h5.read_unread, h6.read_unread, View.ld_unit_zero (S := S512x1024) hz2, View.ld_unit_zero (S := S1024x1024) hz2, View.ld_unit_zero (S := S1024x128) hz2, View.ld_unit_zero (S := S1x1x512) hz3]

end Cert.KernelIdeal.KerValue
end
-- ==== Proof.KerAcc.lean ====
import proofs.«159336_g120259084421_cont_main3_733_4_alg».proof.Proof.KerOut

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ)

/-! The accumulators across the grid: after point `n` each holds the zero block stepped through the blocks of
points 0 … n, in point order. -/

/-- The row-sum accumulator after point `n`. -/
def accS (c : Dev nD) : (n : ℕ) → n < cfg0.N → Vec F S1024x1024 .f32
  | 0, h => stepS (iblk m c 0 ⟨0, h⟩) (iblk m c 1 ⟨0, h⟩) k0_pay3
  | n + 1, h => stepS (iblk m c 0 ⟨n + 1, h⟩) (iblk m c 1 ⟨n + 1, h⟩) (accS c n (Nat.lt_of_succ_lt h))

/-- The norm-and-count accumulator after point `n`. -/
def accA (c : Dev nD) : (n : ℕ) → n < cfg0.N → Vec F S1024x128 .f32
  | 0, h => stepA (iblk m c 0 ⟨0, h⟩) (iblk m c 1 ⟨0, h⟩) k0_pay4
  | n + 1, h => stepA (iblk m c 0 ⟨n + 1, h⟩) (iblk m c 1 ⟨n + 1, h⟩) (accA c n (Nat.lt_of_succ_lt h))

/-- What the body leaves in the two carried buffers after point `n` is the pair of accumulators: by induction on
    the point, the first point zeroing, every later point stepping what the point before left. -/
theorem outsAt_acc (c : Dev nD) : ∀ (n : ℕ) (h : n < cfg0.N),
    (outsAt0 m c n h).2.1 = accS m c n h ∧ (outsAt0 m c n h).2.2 = accA m c n h
  | 0, h => by
    have h0 : (⟨0, h⟩ : Fin cfg0.N).val % 32 = 0 := rfl
    have h1 : ¬(⟨0, h⟩ : Fin cfg0.N).val % 32 = 31 := by dsimp only; omega
    rw [outsAt0_A m c ⟨0, h⟩ h0 h1]
    dsimp only
    exact ⟨sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩),
      sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩)⟩
  | n + 1, h => by
    have hN : cfg0.N = 32 := N_0
    have ih := outsAt_acc c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine ⟨(sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _ _).trans ?_,
        (sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _ _).trans ?_⟩
      · show stepS _ _ (outsAt0 m c n _).2.1 = stepS _ _ (accS m c n _)
        rw [ih.1]
      · show stepA _ _ (outsAt0 m c n _).2.2 = stepA _ _ (accA m c n _)
        rw [ih.2]
    · rw [outsAt0_B m c ⟨n + 1, h⟩ h0 h1]
      dsimp only
      refine ⟨(sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _ _).trans ?_,
        (sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _ _).trans ?_⟩
      · show stepS _ _ (outsAt0 m c n _).2.1 = stepS _ _ (accS m c n _)
        rw [ih.1]
      · show stepA _ _ (outsAt0 m c n _).2.2 = stepA _ _ (accA m c n _)
        rw [ih.2]

/-- The last point. -/
abbrev tLast : Fin cfg0.N := ⟨31, by rw [show cfg0.N = 32 from N_0]; decide⟩

/-- The output block the last point stores: the loss formula of the centres' block, the row sums after all 32
    points, and columns 0 and 1 of the second accumulator after all 32 points. -/
theorem outLast (c : Dev nD) :
    (outsAt0 m c tLast.val tLast.isLt).1
      = k0_pay2 (iblk m c 2 tLast) (accS m c 31 tLast.isLt) (col0Of (accA m c 31 tLast.isLt)) (col1Of (accA m c 31 tLast.isLt)) := by
  have ih := outsAt_acc m c 30 (Nat.lt_of_succ_lt tLast.isLt)
  have h0 : ¬(tLast : Fin cfg0.N).val % 32 = 0 := by decide
  have h1 : (tLast : Fin cfg0.N).val % 32 = 31 := by decide
  rw [outsAt0_C m c tLast h0 h1]
  dsimp only
  refine (oC3 c (grid0.coords tLast) (ms0_0 tLast) (hs0_0 tLast) (ms0_1 tLast) (hs0_1 tLast) (ms0_2 tLast) (hs0_2 tLast) (ms0_3 tLast) (hs0_3 tLast) scM0_0 (Memref.isWhole_whole _) scM0_1 (Memref.isWhole_whole _) (fun hh => h0 ((hcond0_0 tLast).mp hh)) ((hcond0_1 tLast).mpr h1) (iblk m c 0 tLast) (iblk m c 1 tLast) (iblk m c 2 tLast) _ _).trans ?_
  show k0_pay2 _ (stepS _ _ (outsAt0 m c 30 _).2.1) (col0Of (stepA _ _ (outsAt0 m c 30 _).2.2)) (col1Of (stepA _ _ (outsAt0 m c 30 _).2.2)) = _
  rw [ih.1, ih.2]
  rfl

end Cert.KernelIdeal.KerValue
end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Spec.lean ====
/-
  The quantity both programs compute, written once over the argument arrays at the exact (extended-real) reading.

  For a batch `x` of 16384 rows of width 1024, one class label per row and 1000 class centres of width 1024, the
  centre loss is the mean over the classes of the Euclidean norm of the stacked differences between the rows of a
  class and that class's centre:

      out = ( ∑_{c < 1000} gate ( ∑_{i : label i = c} ∑_j (x i j - centre c j)² ) ) / 1000,

  where `gate p` is the square root of `p` when `p` is positive and zero otherwise (an empty class contributes zero).
  Both programs spell the gate the same way: a comparison against zero that first replaces a non-positive argument of
  the root by one and then selects zero for it.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

/-- The batch: 16384 rows of width 1024. -/
abbrev SX : Shape := ⟨2, ![16384, 1024]⟩
/-- One label per row. -/
abbrev SL : Shape := ⟨1, ![16384]⟩
/-- The class centres: 1000 rows of width 1024. -/
abbrev SC : Shape := ⟨2, ![1000, 1024]⟩

/-- The word of the float zero, the float one and the float thousand, as both programs print them. -/
abbrev zeroF : EReal := Ideal.ofBits .f32 0x00000000#32
abbrev oneF : EReal := Ideal.ofBits .f32 0x3F800000#32
abbrev thousandF : EReal := Ideal.ofBits .f32 0x447A0000#32

/-- The gate on a class's summed squared distance `p`: its square root when `p > 0`, zero otherwise; the root's
    argument is replaced by one where `p` is not positive, as both programs do before selecting zero there. -/
def gate (p : EReal) : EReal :=
  Scalar.select (Ideal.cmp .ogt p zeroF) (Ideal.sqrt (Scalar.select (Ideal.cmp .ogt p zeroF) p oneF)) zeroF

/-- The squared distance of row `i` of the batch to the centre of class `c`. -/
def sqDist (x : SX.Idx → EReal) (cen : SC.Idx → EReal) (i : Fin 16384) (c : Fin 1000) : EReal :=
  ∑ j : Fin 1024, (x (ix2 i j) - cen (ix2 c j)) * (x (ix2 i j) - cen (ix2 c j))

/-- The summed squared distance of class `c`: over the rows whose label is `c`, the squared distance to its centre. -/
def classDist (x : SX.Idx → EReal) (lab : SL.Idx → BitVec 32) (cen : SC.Idx → EReal) (c : Fin 1000) : EReal :=
  ∑ i : Fin 16384, if (lab (ix1 i)).toNat = c.val then sqDist x cen i c else 0

/-- The centre loss: the gated class distances summed over the 1000 classes, divided by the float thousand. -/
def loss (x : SX.Idx → EReal) (lab : SL.Idx → BitVec 32) (cen : SC.Idx → EReal) : EReal :=
  Ideal.div (∑ c : Fin 1000, gate (classDist x lab cen c)) thousandF

/-! ## The same quantity as the kernel arranges it

The kernel never gathers a centre per row. It accumulates, per class `c` of 1024 (the 1000 classes padded by 24
all-zero centres), the sum of the rows of the class, the sum of their squared norms and their number — each a sum over
the rows against the indicator "this row's label is `c`" — and expands the square at the end:

    ∑_{i ∈ c} ‖x_i - centre_c‖² = ∑_{i ∈ c} ‖x_i‖² - 2 · ⟨∑_{i ∈ c} x_i, centre_c⟩ + |c| · ‖centre_c‖². -/

/-- The float two, as the kernel prints it. -/
abbrev twoF : EReal := Ideal.ofBits .f32 0x40000000#32

/-- The indicator that a label word is the class `c`. -/
def hot (l : BitVec 32) (c : Fin 1024) : EReal := if l.toNat = c.val then 1 else 0

/-- The centres padded to 1024 rows: rows 1000 … 1023 are zero. -/
def padCen (cen : SC.Idx → EReal) (c : Fin 1024) (j : Fin 1024) : EReal :=
  if h : c.val < 1000 then cen (ix2 (⟨c.val, h⟩ : Fin 1000) j) else 0

/-- The squared norm of row `i`. -/
def rowSq (x : SX.Idx → EReal) (i : Fin 16384) : EReal := ∑ j : Fin 1024, x (ix2 i j) * x (ix2 i j)

/-- Column `j` of the sum of the rows labelled `c`. -/
def sumRows (x : SX.Idx → EReal) (lab : SL.Idx → BitVec 32) (c j : Fin 1024) : EReal :=
  ∑ i : Fin 16384, hot (lab (ix1 i)) c * x (ix2 i j)

/-- The sum of the squared norms of the rows labelled `c`. -/
def sumSq (x : SX.Idx → EReal) (lab : SL.Idx → BitVec 32) (c : Fin 1024) : EReal :=
  ∑ i : Fin 16384, hot (lab (ix1 i)) c * rowSq x i

/-- The number of rows labelled `c`. -/
def count (lab : SL.Idx → BitVec 32) (c : Fin 1024) : EReal :=
  ∑ i : Fin 16384, hot (lab (ix1 i)) c * oneF

/-- The class distance by the expanded square. -/
def kerClass (x : SX.Idx → EReal) (lab : SL.Idx → BitVec 32) (cen : SC.Idx → EReal) (c : Fin 1024) : EReal :=
  (sumSq x lab c - twoF * (∑ j : Fin 1024, sumRows x lab c j * padCen cen c j))
    + count lab c * (∑ j : Fin 1024, padCen cen c j * padCen cen c j)

/-- The centre loss as the kernel arranges it: gated over the 1024 padded classes, divided by the float thousand. -/
def kerLoss (x : SX.Idx → EReal) (lab : SL.Idx → BitVec 32) (cen : SC.Idx → EReal) : EReal :=
  Ideal.div (∑ c : Fin 1024, gate (kerClass x lab cen c)) thousandF

end Cert.CenterLoss

end
-- ==== Proof.KerReadOut.lean ====
import proofs.«159336_g120259084421_cont_main3_733_4_alg».proof.Proof.KerPieces
import Idealize.ShloMosaic.Lib.KernelVsHost
import proofs.«159336_g120259084421_cont_main3_733_4_alg».proof.Proof.LibMatmulPlain
import proofs.«159336_g120259084421_cont_main3_733_4_alg».proof.Proof.LibKeepdims
import proofs.«159336_g120259084421_cont_main3_733_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KerValue

open Cert.KernelIdeal Cert.KernelIdeal.Gen Cert.CenterLoss

/-! The last point's output: from the centres, the row sums and the two used columns of the second accumulator, the
class distances by the expanded square, gated, summed over the 1024 padded classes and divided by a thousand. -/

/-- A sum over every entry of a 1024 × 1 column viewed as a 1 × 1024 × 1 block is the sum down the column. -/
theorem sum_col_as_block (v : Vec Ideal S1024x1 .f32) :
    ∑ i : S1x1024x1.Idx, shapeCast S1x1024x1 v shapeCasts_S1024x1_S1x1024x1 i = ∑ c : Fin 1024, v (ix2 c (0 : Fin 1)) := by
  unfold shapeCast
  rw [Equiv.sum_comp (Shape.reshapeEquiv _) v, sum_idx2]
  exact Finset.sum_congr rfl fun c _ => Fin.sum_univ_one _

/-- The single entry of a one-element vector viewed as a 1 × 1 × 1 block and extracted. -/
theorem extract_single (v : FVec Ideal S1 .f32) (h1 : S1.ShapeCasts S1x1x1) (h2 : ∀ a, (![0, 0, 0] : Fin 3 → Nat) a < S1x1x1.size a) :
    extractAt ![0, 0, 0] (shapeCast S1x1x1 v h1) h2 = v (ix1 (0 : Fin 1)) := by
  unfold extractAt shapeCast
  refine congrArg v (funext fun d => Fin.ext ?_)
  match d with
  | ⟨0, _⟩ => exact Nat.lt_one_iff.mp ((Shape.reshapeEquiv h1 _ ⟨0, _⟩).isLt)

/-- The output block's one entry. -/
theorem pay2_apply (cen s : Vec Ideal S1024x1024 .f32) (a0 a1 : Vec Ideal S1024x1 .f32) :
    k0_pay2 (F := Ideal) cen s a0 a1 (ix2 (0 : Fin 1) (0 : Fin 1))
      = Ideal.div (∑ c : Fin 1024, gate ((a0 (ix2 c (0 : Fin 1)) - twoF * ∑ j : Fin 1024, s (ix2 c j) * cen (ix2 c j))
          + a1 (ix2 c (0 : Fin 1)) * ∑ j : Fin 1024, cen (ix2 c j) * cen (ix2 c j))) thousandF := by
  unfold k0_pay2
  rw [divf_apply, broadcast_apply, broadcast_apply, extract_single]
  refine congrArg (fun t => Ideal.div t thousandF) ?_
  refine (Ideal.multiReduction_add_total (φ := .f32) _ (0#32) reduces_S1x1024x1_S1
    (fun b => by match b with | ⟨0, _⟩ => rfl) (.inl rfl) rfl (ix1 (0 : Fin 1))).trans ?_
  refine (sum_col_as_block _).trans ?_
  refine Finset.sum_congr rfl fun c _ => ?_
  show gate _ = gate _
  refine congrArg gate ?_
  show (a0 _ - twoF * _) + a1 _ * _ = _
  refine congrArg₂ (· + ·) (congrArg₂ (· - ·) rfl (congrArg (twoF * ·) ?_)) (congrArg (a1 (ix2 c (0 : Fin 1)) * ·) ?_)
  · exact (Cert.Lib.Keepdims.sumCol_apply _ _ _ _ _ _ c).trans
      (Finset.sum_congr rfl fun j _ => by rw [mulf_apply, shapeCast_self])
  · exact (Cert.Lib.Keepdims.sumCol_apply _ _ _ _ _ _ c).trans
      (Finset.sum_congr rfl fun j _ => by rw [mulf_apply, shapeCast_self])

end Cert.KernelIdeal.KerValue
end
-- ==== Proof.KerBlocks.lean ====
/-
  The three operand blocks at a grid point, read back to the argument arrays.

  The grid has 32 points. At point `t` the label window holds the 512 labels of rows `512 t … 512 t + 511` (the labels
  regrouped as 32 groups of 512 in row-major order), the batch window holds those same 512 rows of the batch, and the
  centre window holds the whole padded centre table: the 1000 centres followed by 24 zero rows.
-/
import proofs.«159336_g120259084421_cont_main3_733_4_alg».proof.Proof.Gen.KernelIdeal.Frame
import proofs.«159336_g120259084421_cont_main3_733_4_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.Lib.KernelVsHost

noncomputable section

namespace Cert.KernelIdeal.KerValue

open Cert.KernelIdeal Cert.KernelIdeal.Gen Cert.KernelIdeal.Facts Idealize.ShloMosaic Idealize.ShloMosaic.TcCoe Idealize.ShloMosaic.ValueIdx

variable (m : (ℓ : Loc nD τ sig) → Buf (Elt Ideal) ℓ)

/-- Row `r` of the block at point `t` is row `512 t + r` of the batch. -/
def rowOf (t : Fin cfg0.N) (r : Fin 512) : Fin 16384 :=
  ⟨512 * t.val + r.val, by have := t.isLt; have hN : cfg0.N = 32 := N_0; have := r.isLt; omega⟩

theorem rowOf_val (t : Fin cfg0.N) (r : Fin 512) : (rowOf t r).val = 512 * t.val + r.val := rfl

/-- The batch window's block index at point `t` is `(t, 0)`. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The batch block at point `t`: rows `512 t + r` of the batch. -/
theorem xBlk (c : Dev nD) (t : Fin cfg0.N) (r : Fin 512) (j : Fin 1024) :
    (iblk m c 1 t : Vec Ideal S512x1024 .f32) (ix2 r j) = m ((c : Thread nD τ).loc main_arg0) (ix2 (rowOf t r) j) := by
  have hi := idx1 t
  unfold iblk
  rw [View.read_apply]
  show V m c main_arg0 _ = m (c.tc.loc main_arg0) _
  rw [V_main_arg0]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * j.val = j.val; rw [hi.2]; omega

/-! ## The labels -/

/-- The label window's block index at point `t` is `(t, 0, 0)`. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The label window's array is the labels regrouped as 32 groups of one row of 512. -/
theorem V_main_v0 (c : Dev nD) :
    (V m c main_v0 : S32x1x512.Idx → BitVec 32)
      = shapeCast S32x1x512 (m ((c : Thread nD τ).loc main_arg1)) shapeCasts_S16384_S32x1x512 := by
  dsimp only [Gen.V, Gen.V0]
  simp only [Gen.hostOps0, Gen.hostOps0_1, List.flatten_cons, List.flatten_nil, List.append_nil, List.cons_append,
    List.nil_append]
  after_results
  rfl

/-- The regrouped labels read at `(g, 0, r)` are label `512 g + r`. -/
theorem regroup_apply (lab : S16384.Idx → BitVec 32) (h : S16384.ShapeCasts S32x1x512) (j : S32x1x512.Idx) (k : Fin 16384)
    (hk : k.val = 512 * (j 0).val + (j 2).val) : shapeCast S32x1x512 lab h j = lab (ix1 k) := by
  refine shapeCast_apply lab h j (ix1 k) ?_
  rw [Shape.rowMajor_val_one, Shape.rowMajor_val_three]
  have h1 : (j 1).val = 0 := by have := (j 1).isLt; have e : S32x1x512.size 1 = 1 := rfl; omega
  show k.val = ((j 0).val * 1 + (j 1).val) * 512 + (j 2).val
  rw [hk, h1]; omega

/-- The label block at point `t`: the labels of rows `512 t + r`. -/
theorem labBlk (c : Dev nD) (t : Fin cfg0.N) (r : Fin 512) :
    (iblk m c 0 t : Vec Ideal S1x1x512 .i32) (ix3 (0 : Fin 1) (0 : Fin 1) r)
      = m ((c : Thread nD τ).loc main_arg1) (ix1 (rowOf t r)) := by
  have hi := idx0 t
  unfold iblk
  rw [View.read_apply]
  show V m c main_v0 _ = _
  rw [V_main_v0]
  refine regroup_apply _ _ _ _ ?_
  show 512 * t.val + r.val = 512 * (win0_0.index t 0 * 1 + 1 * 0) + (win0_0.index t 2 * 512 + 1 * r.val)
  rw [hi.1, hi.2.2]; omega

/-! ## The centres -/

/-- The centre window's block index is `(0, 0)` at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The centre window's array is the centres with 24 rows of the converted integer zero appended. -/
theorem V_main_v1 (c : Dev nD) :
    (V m c main_v1 : S1024x1024.Idx → EReal)
      = pad S1024x1024 ![0, 0] ![24, 0] ![0, 0] (m ((c : Thread nD τ).loc main_arg2))
          (sitofp (F := Ideal) .f32 (constantI S_ 32 0#32)) pads_S1000x1024_S1024x1024_0240_000 h_S_ := by
  dsimp only [Gen.V, Gen.V0]
  simp only [Gen.hostOps0, Gen.hostOps0_1, List.flatten_cons, List.flatten_nil, List.append_nil, List.cons_append,
    List.nil_append]
  after_results
  rfl

/-- The padded table read at `(cc, j)`: the centre for `cc < 1000`, zero beyond. -/
theorem padded_apply (cen : S1000x1024.Idx → EReal) (h : S1000x1024.Pads (![0, 0] : Fin 2 → Nat) ![24, 0] ![0, 0] S1024x1024)
    (hu : 0 < S_.numel) (i : S1024x1024.Idx) (cc j : Fin 1024) (h0 : (i 0).val = cc.val) (h1 : (i 1).val = j.val) :
    pad S1024x1024 ![0, 0] ![24, 0] ![0, 0] cen (sitofp (F := Ideal) .f32 (constantI S_ 32 0#32)) h hu i
      = Cert.CenterLoss.padCen cen cc j := by
  unfold Cert.CenterLoss.padCen
  by_cases hc : cc.val < 1000
  · rw [dif_pos hc]
    refine pad_apply_of_inside _ _ _ cen _ h hu i (ix2 (⟨cc.val, hc⟩ : Fin 1000) j) fun a => ?_
    match a with
    | ⟨0, _⟩ => show (i 0).val = 0 + cc.val * (0 + 1); rw [h0]; omega
    | ⟨1, _⟩ => show (i 1).val = 0 + j.val * (0 + 1); rw [h1]; omega
  · rw [dif_neg hc]
    rw [pad_apply_of_not_inside _ _ _ cen _ h hu i (0 : Fin 2) (by
      show ¬(0 ≤ (i 0).val ∧ ((i 0).val - 0) % (0 + 1) = 0 ∧ ((i 0).val - 0) / (0 + 1) < 1000)
      rw [h0]; omega)]
    show (((0#32 : BitVec 32).toInt : ℝ) : EReal) = 0
    simp

/-- The centre block at every point: the whole padded centre table. -/
theorem cenBlk (c : Dev nD) (t : Fin cfg0.N) (cc j : Fin 1024) :
    (iblk m c 2 t : Vec Ideal S1024x1024 .f32) (ix2 cc j)
      = Cert.CenterLoss.padCen (m ((c : Thread nD τ).loc main_arg2)) cc j := by
  have hi := idx2 t
  unfold iblk
  rw [View.read_apply]
  show V m c main_v1 _ = _
  rw [V_main_v1]
  refine padded_apply _ _ _ _ cc j ?_ ?_
  · show win0_2.index t 0 * 1024 + 1 * cc.val = cc.val; rw [hi.1]; omega
  · show win0_2.index t 1 * 1024 + 1 * j.val = j.val; rw [hi.2]; omega

end Cert.KernelIdeal.KerValue

end
-- ==== Proof.KerReadS.lean ====
import proofs.«159336_g120259084421_cont_main3_733_4_alg».proof.Proof.KerPieces
import proofs.«159336_g120259084421_cont_main3_733_4_alg».proof.Proof.LibMatmulPlain
import proofs.«159336_g120259084421_cont_main3_733_4_alg».proof.Proof.LibKeepdims
import proofs.«159336_g120259084421_cont_main3_733_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KerValue

open Cert.KernelIdeal Cert.KernelIdeal.Gen Cert.CenterLoss

/-! The body's arithmetic read entry by entry on the extended reals.

The one-hot matrix of a block of 512 labels has, at row `c` and column `r`, one when label `r` of the block is the
class `c` and zero otherwise; its product with the block of the batch adds, to row `c` of the row-sum accumulator,
the rows of the block labelled `c`. -/

/-- The one-hot word as a number: comparing the class number with a label word, widening the bit and converting it
    to a float gives one when the label is the class and zero otherwise. -/
theorem hot_word (l : BitVec 32) (c : Fin 1024) :
    FloatOps.sitofp (F := Ideal) .f32 ((IntOp.cmpi .eq (BitVec.ofNat 32 c.val) l).setWidth 32) = hot l c := by
  show ((((BitVec.ofBool (BitVec.ofNat 32 c.val == l)).setWidth 32).toInt : ℝ) : EReal) = if l.toNat = c.val then 1 else 0
  have hc : c.val < 1024 := c.isLt
  by_cases h : l.toNat = c.val
  · have e : BitVec.ofNat 32 c.val = l := by
      apply BitVec.eq_of_toNat_eq
      rw [BitVec.toNat_ofNat, h]
      exact Nat.mod_eq_of_lt (by omega)
    have e' : (BitVec.ofNat 32 c.val == l) = true := by rw [e]; exact beq_self_eq_true l
    rw [if_pos h, e']
    have : ((BitVec.ofBool true).setWidth 32).toInt = 1 := by decide
    rw [this]; simp
  · have e' : (BitVec.ofNat 32 c.val == l) = false := by
      apply beq_false_of_ne
      intro e
      apply h
      rw [← e, BitVec.toNat_ofNat]
      exact Nat.mod_eq_of_lt (by omega)
    rw [if_neg h, e']
    have : ((BitVec.ofBool false).setWidth 32).toInt = 0 := by decide
    rw [this]; simp

/-- Entry (c, r) of the one-hot matrix of a block of labels. -/
theorem pay5_apply (lab : Vec Ideal S1x1x512 .i32) (c : Fin 1024) (r : Fin 512) :
    k0_pay5 (F := Ideal) lab (ix2 c r) = hot (lab (ix3 (0 : Fin 1) (0 : Fin 1) r)) c := by
  unfold k0_pay5
  show FloatOps.sitofp (F := Ideal) .f32 ((IntOp.cmpi .eq (iota .tc S1024x512 32 [0] iota_S1024x512_d0_w32 (ix2 c r))
    (broadcastTo S1024x512 (shapeCast S1x512 lab shapeCasts_S1x1x512_S1x512) broadcasts_S1x512_S1024x512 (ix2 c r))).setWidth 32) = _
  rw [iota_single_apply, broadcastTo_1b_ab_apply, shapeCast_1ab_ab_apply]
  exact hot_word _ c

/-- Entry (c, j) of the row-sum accumulator after a step: its entry before plus the sum, over the 512 rows of the
    block, of the indicator that the row is labelled `c` times the row's entry j. -/
theorem stepS_apply (lab : Vec Ideal S1x1x512 .i32) (x : Vec Ideal S512x1024 .f32) (s : Vec Ideal S1024x1024 .f32)
    (c j : Fin 1024) :
    stepS (F := Ideal) lab x s (ix2 c j)
      = s (ix2 c j) + ∑ r : Fin 512, hot (lab (ix3 (0 : Fin 1) (0 : Fin 1) r)) c * x (ix2 r j) := by
  show k0_pay6 x lab s (ix2 c j) = _
  unfold k0_pay6
  rw [shapeCast_self, addf_apply]
  refine congrArg (s (ix2 c j) + ·) ?_
  refine (Cert.LibMatmulPlain.matmul_zero_apply (M := 1024) (K := 512) (N := 1024) _ none _ _ c j).trans ?_
  refine Finset.sum_congr rfl fun r _ => ?_
  rw [truncf_apply, truncf_apply, pay5_apply]

end Cert.KernelIdeal.KerValue
end
-- ==== Proof.KerReadA.lean ====
import proofs.«159336_g120259084421_cont_main3_733_4_alg».proof.Proof.KerReadS
import proofs.«159336_g120259084421_cont_main3_733_4_alg».proof.Proof.LibMatmulPlain
import proofs.«159336_g120259084421_cont_main3_733_4_alg».proof.Proof.LibKeepdims
import proofs.«159336_g120259084421_cont_main3_733_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KerValue

open Cert.KernelIdeal Cert.KernelIdeal.Gen Cert.CenterLoss

/-! The second accumulator: its step multiplies the one-hot matrix of the block's labels with a 512 × 128 matrix whose
column 0 holds the squared norms of the block's rows, whose column 1 holds ones, and whose other columns hold zeros;
so column 0 accumulates, per class, the squared norms of the rows of the class, and column 1 their number. -/

/-- Column 0 after a step: its entry before plus, over the rows of the block, the indicator times the row's squared norm. -/
theorem stepA_apply0 (lab : Vec Ideal S1x1x512 .i32) (x : Vec Ideal S512x1024 .f32) (a : Vec Ideal S1024x128 .f32) (c : Fin 1024) :
    stepA (F := Ideal) lab x a (ix2 c (0 : Fin 128))
      = a (ix2 c (0 : Fin 128)) + ∑ r : Fin 512, hot (lab (ix3 (0 : Fin 1) (0 : Fin 1) r)) c * (∑ j : Fin 1024, x (ix2 r j) * x (ix2 r j)) := by
  show k0_pay1 (k0_pay7 x lab a) (ix2 c (0 : Fin 128)) = _
  unfold k0_pay1 k0_pay7
  rw [shapeCast_self, addf_apply]
  refine congrArg (a (ix2 c (0 : Fin 128)) + ·) ?_
  refine (Cert.LibMatmulPlain.matmul_zero_apply (M := 1024) (K := 512) (N := 128) _ none _ _ c (0 : Fin 128)).trans ?_
  refine Finset.sum_congr rfl fun r _ => ?_
  rw [pay5_apply]
  refine congrArg (hot _ c * ·) ?_
  rw [select_apply]
  have hbit : cmpi .eq (iota .tc S512x128 32 [1] iota_S512x128_d1_w32) (broadcast S512x128 (0#32 : BitVec 32)) (ix2 r (0 : Fin 128)) = 1#1 := by
    show IntOp.cmpi .eq (iota .tc S512x128 32 [1] iota_S512x128_d1_w32 (ix2 r (0 : Fin 128))) (0#32) = 1#1
    rw [iota_single_apply]
    show IntOp.cmpi .eq (BitVec.ofNat 32 0) (0#32) = 1#1
    decide
  rw [hbit, select_one, Cert.Lib.Keepdims.bcastCol_apply, shapeCast_self]
  exact (Cert.Lib.Keepdims.sumCol_apply (mulf x x) _ _ _ _ _ r).trans (Finset.sum_congr rfl fun j _ => mulf_apply x x _)

/-- Column 1 after a step: its entry before plus, over the rows of the block, the indicator times one. -/
theorem stepA_apply1 (lab : Vec Ideal S1x1x512 .i32) (x : Vec Ideal S512x1024 .f32) (a : Vec Ideal S1024x128 .f32) (c : Fin 1024) :
    stepA (F := Ideal) lab x a (ix2 c (1 : Fin 128))
      = a (ix2 c (1 : Fin 128)) + ∑ r : Fin 512, hot (lab (ix3 (0 : Fin 1) (0 : Fin 1) r)) c * oneF := by
  show k0_pay1 (k0_pay7 x lab a) (ix2 c (1 : Fin 128)) = _
  unfold k0_pay1 k0_pay7
  rw [shapeCast_self, addf_apply]
  refine congrArg (a (ix2 c (1 : Fin 128)) + ·) ?_
  refine (Cert.LibMatmulPlain.matmul_zero_apply (M := 1024) (K := 512) (N := 128) _ none _ _ c (1 : Fin 128)).trans ?_
  refine Finset.sum_congr rfl fun r _ => ?_
  rw [pay5_apply]
  refine congrArg (hot _ c * ·) ?_
  rw [select_apply]
  have hbit0 : cmpi .eq (iota .tc S512x128 32 [1] iota_S512x128_d1_w32) (broadcast S512x128 (0#32 : BitVec 32)) (ix2 r (1 : Fin 128)) = 0#1 := by
    show IntOp.cmpi .eq (iota .tc S512x128 32 [1] iota_S512x128_d1_w32 (ix2 r (1 : Fin 128))) (0#32) = 0#1
    rw [iota_single_apply]
    show IntOp.cmpi .eq (BitVec.ofNat 32 1) (0#32) = 0#1
    decide
  have hbit1 : cmpi .eq (iota .tc S512x128 32 [1] iota_S512x128_d1_w32) (broadcast S512x128 (1#32 : BitVec 32)) (ix2 r (1 : Fin 128)) = 1#1 := by
    show IntOp.cmpi .eq (iota .tc S512x128 32 [1] iota_S512x128_d1_w32 (ix2 r (1 : Fin 128))) (1#32) = 1#1
    rw [iota_single_apply]
    show IntOp.cmpi .eq (BitVec.ofNat 32 1) (1#32) = 1#1
    decide
  rw [hbit0, select_zero, select_apply, hbit1, select_one]
  rfl

end Cert.KernelIdeal.KerValue
end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.KerSum.lean ====
/-
  The two accumulators after the last grid point are the sums over all 16384 rows.

  Each grid point adds, to every entry of an accumulator, the sum over the 512 rows of its block of one term per row;
  the accumulators start at zero; the 32 blocks are the consecutive groups of 512 rows. So after the last point an
  entry holds the sum of the term over all 16384 = 32 · 512 rows. Only the commutative-monoid laws of the addition
  are used.
-/
import proofs.«159336_g120259084421_cont_main3_733_4_alg».proof.Proof.KerAcc
import proofs.«159336_g120259084421_cont_main3_733_4_alg».proof.Proof.KerReadS
import proofs.«159336_g120259084421_cont_main3_733_4_alg».proof.Proof.KerReadA
import proofs.«159336_g120259084421_cont_main3_733_4_alg».proof.Proof.KerBlocks
import proofs.«159336_g120259084421_cont_main3_733_4_alg».proof.Proof.LibSumBlocks

set_option maxRecDepth 16384

noncomputable section

open Idealize.ShloMosaic Idealize.ShloMosaic.TcCoe Idealize.SL.Sem Idealize.ShloMosaic.ValueIdx

namespace Cert.KernelIdeal.KerValue

open Cert.KernelIdeal Cert.KernelIdeal.Gen Cert.CenterLoss

variable (m : (ℓ : Loc nD τ sig) → Buf (Elt Ideal) ℓ)

/-! ## Sums accumulated block by block -/

/-- A quantity that starts at zero plus the first block's term and gains one block's term per point is, after point
    `n`, the sum of the terms of blocks `0 … n`. -/
theorem acc_partial {M : Type*} [AddCommMonoid M] (B : Fin cfg0.N → M) (A : (n : ℕ) → n < cfg0.N → M)
    (h0 : ∀ h, A 0 h = 0 + B ⟨0, h⟩)
    (hs : ∀ n (h : n + 1 < cfg0.N), A (n + 1) h = A n (Nat.lt_of_succ_lt h) + B ⟨n + 1, h⟩) :
    ∀ (n : ℕ) (h : n < cfg0.N),
      A n h = ∑ b : Fin (n + 1), B ⟨b.val, Nat.lt_of_le_of_lt (Nat.le_of_lt_succ b.isLt) h⟩
  | 0, h => by
    rw [h0, zero_add, Fin.sum_univ_one]
    rfl
  | n + 1, h => by
    rw [hs, acc_partial B A h0 hs n]
    refine ((Fin.sum_univ_castSucc _).trans ?_).symm
    rfl

/-- With the block's term the sum of a per-row term over the block's 512 rows, the quantity after the last point is
    the sum of the per-row term over all 16384 rows. -/
theorem acc_total {M : Type*} [AddCommMonoid M] (g : Fin 16384 → M) (A : (n : ℕ) → n < cfg0.N → M)
    (h0 : ∀ h, A 0 h = 0 + ∑ r : Fin 512, g (rowOf ⟨0, h⟩ r))
    (hs : ∀ n (h : n + 1 < cfg0.N), A (n + 1) h = A n (Nat.lt_of_succ_lt h) + ∑ r : Fin 512, g (rowOf ⟨n + 1, h⟩ r)) :
    A 31 tLast.isLt = ∑ i : Fin 16384, g i := by
  rw [acc_partial (fun t => ∑ r : Fin 512, g (rowOf t r)) A h0 hs 31 tLast.isLt]
  refine ((Cert.LibSumBlocks.sum_blocks 32 512 g).trans ?_).symm
  refine Finset.sum_congr rfl fun b _ => Finset.sum_congr rfl fun r _ => congrArg g (Fin.ext ?_)
  show b.val * 512 + r.val = 512 * b.val + r.val
  omega

/-! ## The zero blocks -/

theorem pay3_apply (i : S1024x1024.Idx) : k0_pay3 (F := Ideal) i = 0 := by
  unfold k0_pay3
  rw [shapeCast_self]
  exact Ideal.ofBits_zero_f32

theorem pay4_apply (i : S1024x128.Idx) : k0_pay4 (F := Ideal) i = 0 := by
  unfold k0_pay4
  rw [shapeCast_self]
  exact Ideal.ofBits_zero_f32

/-! ## The row sums -/

/-- Entry `(cc, j)` of the row-sum accumulator after the last point: column `j` of the sum of the rows labelled `cc`. -/
theorem accS_last (c : Dev nD) (cc j : Fin 1024) :
    accS m c 31 tLast.isLt (ix2 cc j)
      = sumRows (m ((c : Thread nD τ).loc main_arg0)) (m ((c : Thread nD τ).loc main_arg1)) cc j := by
  refine acc_total
    (fun i => hot (m ((c : Thread nD τ).loc main_arg1) (ix1 i)) cc * m ((c : Thread nD τ).loc main_arg0) (ix2 i j))
    (fun n h => accS m c n h (ix2 cc j)) (fun h => ?_) (fun n h => ?_)
  · show stepS (F := Ideal) (iblk m c 0 ⟨0, h⟩) (iblk m c 1 ⟨0, h⟩) (k0_pay3 (F := Ideal)) (ix2 cc j) = _
    refine (stepS_apply _ _ _ cc j).trans ?_
    rw [pay3_apply]
    refine congrArg (0 + ·) (Finset.sum_congr rfl fun r _ => ?_)
    rw [labBlk, xBlk]
  · show stepS (F := Ideal) (iblk m c 0 ⟨n + 1, h⟩) (iblk m c 1 ⟨n + 1, h⟩) (accS m c n _) (ix2 cc j) = _
    refine (stepS_apply _ _ _ cc j).trans ?_
    refine congrArg (accS m c n _ (ix2 cc j) + ·) (Finset.sum_congr rfl fun r _ => ?_)
    rw [labBlk, xBlk]

/-! ## The squared norms and the counts -/

/-- Column 0 of the second accumulator after the last point: the sum of the squared norms of the rows labelled `cc`. -/
theorem accA_last0 (c : Dev nD) (cc : Fin 1024) :
    accA m c 31 tLast.isLt (ix2 cc (0 : Fin 128))
      = sumSq (m ((c : Thread nD τ).loc main_arg0)) (m ((c : Thread nD τ).loc main_arg1)) cc := by
  refine acc_total
    (fun i => hot (m ((c : Thread nD τ).loc main_arg1) (ix1 i)) cc * rowSq (m ((c : Thread nD τ).loc main_arg0)) i)
    (fun n h => accA m c n h (ix2 cc (0 : Fin 128))) (fun h => ?_) (fun n h => ?_)
  · show stepA (F := Ideal) (iblk m c 0 ⟨0, h⟩) (iblk m c 1 ⟨0, h⟩) (k0_pay4 (F := Ideal)) (ix2 cc (0 : Fin 128)) = _
    refine (stepA_apply0 _ _ _ cc).trans ?_
    rw [pay4_apply]
    refine congrArg (0 + ·) (Finset.sum_congr rfl fun r _ => ?_)
    refine congrArg₂ (· * ·) (by rw [labBlk]) (Finset.sum_congr rfl fun j _ => ?_)
    rw [xBlk]
  · show stepA (F := Ideal) (iblk m c 0 ⟨n + 1, h⟩) (iblk m c 1 ⟨n + 1, h⟩) (accA m c n _) (ix2 cc (0 : Fin 128)) = _
    refine (stepA_apply0 _ _ _ cc).trans ?_
    refine congrArg (accA m c n _ (ix2 cc (0 : Fin 128)) + ·) (Finset.sum_congr rfl fun r _ => ?_)
    refine congrArg₂ (· * ·) (by rw [labBlk]) (Finset.sum_congr rfl fun j _ => ?_)
    rw [xBlk]

/-- Column 1 of the second accumulator after the last point: the number of rows labelled `cc`. -/
theorem accA_last1 (c : Dev nD) (cc : Fin 1024) :
    accA m c 31 tLast.isLt (ix2 cc (1 : Fin 128)) = count (m ((c : Thread nD τ).loc main_arg1)) cc := by
  refine acc_total
    (fun i => hot (m ((c : Thread nD τ).loc main_arg1) (ix1 i)) cc * oneF)
    (fun n h => accA m c n h (ix2 cc (1 : Fin 128))) (fun h => ?_) (fun n h => ?_)
  · show stepA (F := Ideal) (iblk m c 0 ⟨0, h⟩) (iblk m c 1 ⟨0, h⟩) (k0_pay4 (F := Ideal)) (ix2 cc (1 : Fin 128)) = _
    refine (stepA_apply1 _ _ _ cc).trans ?_
    rw [pay4_apply]
    refine congrArg (0 + ·) (Finset.sum_congr rfl fun r _ => ?_)
    rw [labBlk]
  · show stepA (F := Ideal) (iblk m c 0 ⟨n + 1, h⟩) (iblk m c 1 ⟨n + 1, h⟩) (accA m c n _) (ix2 cc (1 : Fin 128)) = _
    refine (stepA_apply1 _ _ _ cc).trans ?_
    refine congrArg (accA m c n _ (ix2 cc (1 : Fin 128)) + ·) (Finset.sum_congr rfl fun r _ => ?_)
    rw [labBlk]

end Cert.KernelIdeal.KerValue

end
-- ==== Proof.KerFinal.lean ====
import proofs.«159336_g120259084421_cont_main3_733_4_alg».proof.Proof.KerAcc
import proofs.«159336_g120259084421_cont_main3_733_4_alg».proof.Proof.KerReadOut
import proofs.«159336_g120259084421_cont_main3_733_4_alg».proof.Proof.KerBlocks
import proofs.«159336_g120259084421_cont_main3_733_4_alg».proof.Proof.KerSum
import proofs.«159336_g120259084421_cont_main3_733_4_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.CenterLoss

variable (m : (ℓ : Loc nD τ sig) → Buf (Elt Ideal) ℓ) (ρ : Dev nD → PrngReg)

/-! The kernel's result. The output window is one 1 × 1 block, stored and written back at the last grid point only;
what it holds there is the loss formula of the accumulators after all 32 points, which are the sums over all 16384
rows; the host then views the 1 × 1 array as a scalar. -/

/-- Row `cc` of the strip loaded from column 0 of the second accumulator is its entry (cc, 0). -/
theorem col0_apply (a : Vec Ideal S1024x128 .f32) (cc : Fin 1024) :
    col0Of a (ix2 cc (0 : Fin 1)) = a (ix2 cc (0 : Fin 128)) := by
  show a _ = a _
  refine congrArg a (funext fun d => Fin.ext ?_)
  match d with
  | ⟨0, _⟩ => first | rfl | (show 0 + 1 * cc.val = cc.val; omega) | (show 0 + cc.val = cc.val; omega) | simp [Rect.idx, Rect.unit]
  | ⟨1, _⟩ => first | rfl | (show 0 + 1 * 0 = 0; omega) | (show 0 + 0 = 0; omega) | simp [Rect.idx, Rect.unit]

/-- Row `cc` of the strip loaded from column 1 is its entry (cc, 1). -/
theorem col1_apply (a : Vec Ideal S1024x128 .f32) (cc : Fin 1024) :
    col1Of a (ix2 cc (0 : Fin 1)) = a (ix2 cc (1 : Fin 128)) := by
  show a _ = a _
  refine congrArg a (funext fun d => Fin.ext ?_)
  match d with
  | ⟨0, _⟩ => first | rfl | (show 0 + 1 * cc.val = cc.val; omega) | (show 0 + cc.val = cc.val; omega) | simp [Rect.idx, Rect.unit]
  | ⟨1, _⟩ => first | rfl | (show 1 + 1 * 0 = 1; omega) | (show 1 + 0 = 1; omega) | simp [Rect.idx, Rect.unit]

/-- What the output array holds at the end: the block the last point stored. -/
abbrev result (c : Dev nD) : Buf (Elt Ideal) ((c : Thread nD τ).loc main_v2) := (outsAt0 m c tLast.val tLast.isLt).1

/-- Its one entry is the loss as the kernel arranges it, of the three argument arrays. -/
theorem result_apply (c : Dev nD) :
    result m c (ix2 (0 : Fin 1) (0 : Fin 1))
      = kerLoss (m ((c : Thread nD τ).loc main_arg0)) (m ((c : Thread nD τ).loc main_arg1)) (m ((c : Thread nD τ).loc main_arg2)) := by
  show (outsAt0 m c tLast.val tLast.isLt).1 (ix2 (0 : Fin 1) (0 : Fin 1)) = _
  rw [outLast]
  refine (pay2_apply _ _ _ _).trans ?_
  unfold kerLoss
  refine congrArg (fun t => Ideal.div t thousandF) (Finset.sum_congr rfl fun cc _ => congrArg gate ?_)
  unfold kerClass
  rw [col0_apply, col1_apply, accA_last0, accA_last1]
  refine congrArg₂ (· + ·) (congrArg₂ (· - ·) rfl (congrArg (twoF * ·) (Finset.sum_congr rfl fun j _ => ?_)))
    (congrArg (count _ cc * ·) (Finset.sum_congr rfl fun j _ => ?_))
  · rw [accS_last, cenBlk]
  · rw [cenBlk]

/-- The one write-back, at the last point, writes it: block (0, 0) of the 1 × 1 array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3]
  have hz' : (fun a => win0_3.index tLast a * main_v2.ty.shape.size a) = fun _ => 0 := funext fun a => by fin_cases a <;> decide
  exact (Memref.read_access_unit_zero (Elt Ideal) main_v2 hz' (fun a => by rw [congrFun hz' a]; simp) (result m c)).symm

/-- So the output array ends holding that block: the last point's block covers it. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- Every index of a 1 × 1 array is (0, 0). -/
theorem idx_one_one (i : S1x1.Idx) : i = ix2 (0 : Fin 1) (0 : Fin 1) := by
  refine (eq_ix2 i).trans ?_
  congr 1 <;> exact Fin.ext (Nat.lt_one_iff.mp (Fin.isLt _))

/-- The scalar the host makes of the 1 × 1 array after the region is the loss as the kernel arranges it. -/
theorem tail_eq (c : Dev nD) :
    Pipeline.afterTail₀ cfgs (dats m) 0 (V0 m) [hostOps1] c main_v3
      = fun _ => kerLoss (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  funext i
  unfold shapeCast
  rw [Pipeline.withArrays_arr spec0 launch0.win.arr_inj c _ _ 3, final_o]
  exact (congrArg (result m c) (idx_one_one _)).trans (result_apply m c)

/-- The kernel's run, read: the result at the loss as the kernel arranges it, the arguments unchanged. -/
theorem run : θ_run defs (onTc (τ := τ) (main (F := Ideal))) ⟨m, fun _ => 0, ρ⟩ fun r => ∀ c : Dev nD,
      r.2.mem ((c.tc : Thread nD τ).loc main_v3)
        = (fun _ => kerLoss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue
end
-- ==== Proof.RefOps.lean ====
import proofs.«159336_g120259084421_cont_main3_733_4_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! The reference as a straight line: its host operations listed in order, each outlined function written out where it
is called, and the run of that line — every buffer ends at the fold of the operations over the launch contents. -/

/-- The straight line of the reference: its fifty operations in order, each outlined function written out where it is
    called — the row lookup's twenty-three (the wrap of a negative index, the range mask, the gather and the
    select against the filler), then the difference, its square, the row sums, the accumulation per class, and the
    two gated selections around the square root, each with its own three. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000x1024_S16384x1_S16384x1024_1_0_n_n_0_1_11024 x i),
    TRef.unary main_call0.v12 main_call0.v14 (broadcastInDim S16384x1024 ![0] bcast_S16384_S16384x1024_0),
    TRef.nullary main_call0.cst (constant S_ .f32 0x7FC00000#32),
    TRef.unary main_call0.cst main_call0.v15 (broadcastInDim S16384x1024 ![] bcast_S_S16384x1024),
    TRef.ternary main_call0.v14 main_call0.v13 main_call0.v15 main_call0.v16 select,
    binary main_arg0 main_v0 main_v1 (subf : (⟨S16384x1024, .f32⟩ : BufTy).Contents (Elt F) → (⟨S16384x1024, .f32⟩ : BufTy).Contents (Elt F) → (⟨S16384x1024, .f32⟩ : BufTy).Contents (Elt F)),
    binary main_v1 main_v1 main_v2 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v2 main_cst main_v3 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_0 (constant S_ .f32 0x00000000#32),
    unary main_cst_0 main_v4 (broadcastInDim S1000 ![] bcast_S_S1000 : (⟨S_, .f32⟩ : BufTy).Contents (Elt F) → (⟨S1000, .f32⟩ : BufTy).Contents (Elt F)),
    unary main_arg1 main_v5 (broadcastInDim S16384x1 ![0] bcast_S16384_S16384x1_0 : (⟨S16384, .i32⟩ : BufTy).Contents (Elt F) → (⟨S16384x1, .i32⟩ : BufTy).Contents (Elt F)),
    ternary main_v4 main_v5 main_v3 main_v6 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)),
    nullary main_cst_1 (constant S_ .f32 0x00000000#32),
    unary main_cst_1 main_v7 (broadcastInDim S1000 ![] bcast_S_S1000 : (⟨S_, .f32⟩ : BufTy).Contents (Elt F) → (⟨S1000, .f32⟩ : BufTy).Contents (Elt F)),
    binary main_v6 main_v7 main_v8 (cmpf .ogt : (⟨S1000, .f32⟩ : BufTy).Contents (Elt F) → (⟨S1000, .f32⟩ : BufTy).Contents (Elt F) → (⟨S1000, .i1⟩ : BufTy).Contents (Elt F)),
    nullary main_cst_2 (constant S_ .f32 0x3F800000#32),
    TRef.unary (.of main_cst_2) main_call1.v0 id,
    TRef.unary main_call1.v0 main_call1.v1 (broadcastInDim S1000 ![] bcast_S_S1000),
    TRef.ternary (.of main_v8) (.of main_v6) main_call1.v1 main_call1.v2 select,
    nullary main_cst_3 (constant S_ .f32 0x00000000#32),
    unary main_cst_3 main_v10 (broadcastInDim S1000 ![] bcast_S_S1000 : (⟨S_, .f32⟩ : BufTy).Contents (Elt F) → (⟨S1000, .f32⟩ : BufTy).Contents (Elt F)),
    binary main_v6 main_v10 main_v11 (cmpf .ogt : (⟨S1000, .f32⟩ : BufTy).Contents (Elt F) → (⟨S1000, .f32⟩ : BufTy).Contents (Elt F) → (⟨S1000, .i1⟩ : BufTy).Contents (Elt F)),
    unary main_v9 main_v12 (Host.sqrt : (⟨S1000, .f32⟩ : BufTy).Contents (Elt F) → (⟨S1000, .f32⟩ : BufTy).Contents (Elt F)),
    nullary main_cst_4 (constant S_ .f32 0x00000000#32),
    TRef.unary (.of main_cst_4) main_call2.v0 id,
    TRef.unary main_call2.v0 main_call2.v1 (broadcastInDim S1000 ![] bcast_S_S1000),
    TRef.ternary (.of main_v11) (.of main_v12) main_call2.v1 main_call2.v2 select,
    nullary main_cst_5 (constant S_ .f32 0x00000000#32),
    binary main_v13 main_cst_5 main_v14 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_6 (constant S_ .f32 0x447A0000#32),
    binary main_v14 main_cst_6 main_v15 (Host.divf : (⟨S_, .f32⟩ : BufTy).Contents (Elt F) → (⟨S_, .f32⟩ : BufTy).Contents (Elt F) → (⟨S_, .f32⟩ : BufTy).Contents (Elt F)) ]

set_option maxRecDepth 2048 in
/-- @main is that straight line: the functions unfolded at their calls and sequencing reassociated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., binary_bufs_sub ..⟩

/-- From any memory with zero counters, every weakly fair execution of @main terminates with every buffer at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
import proofs.«159336_g120259084421_cont_main3_733_4_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-! The reference's result as one pure term of its three argument arrays, stage by stage. -/

/-- The label words after the wrap of a negative index: a word that is negative read signed has the number of
    classes added. -/
def wrapIdx (lab : IVec S16384 32) : IVec S16384 32 :=
  select (cmpi .slt lab (broadcastInDim S16384 ![] bcast_S_S16384 (constantI S_ 32 0#32)))
    (addi lab (broadcastInDim S16384 ![] bcast_S_S16384 (constantI S_ 32 1000#32))) lab

/-- The wrapped words as a column of start indices. -/
def idxCol (lab : IVec S16384 32) : IVec S16384x1 32 :=
  broadcastInDim S16384x1 ![0] bcast_S16384_S16384x1_0 (wrapIdx lab)

/-- Per row: is the start index inside `[0, 999]`? (The conjunction over the one index component.) -/
def inRange (lab : IVec S16384 32) : IVec S16384 1 :=
  Host.reduce IntOp.andi
    (andi (cmpi .sge (idxCol lab) (broadcastInDim S16384x1 ![] bcast_S_S16384x1 (constantI S_ 32 0#32)))
      (cmpi .sle (idxCol lab)
        (broadcastInDim S16384x1 ![0, 1] bcast_S1x1_S16384x1_0_1
          (broadcastInDim S1x1 ![1] bcast_S1_S1x1_1 (constantI S1 32 999#32)))))
    (constantI S_ 1 1#1) reducesTo_S16384x1_S16384_d1 h_S_

/-- The centre of each row's class: the gathered rows where the index is in range, the filler elsewhere. -/
def gathered (lab : IVec S16384 32) (cen : FVec F S1000x1024 .f32) : FVec F S16384x1024 .f32 :=
  select (broadcastInDim S16384x1024 ![0] bcast_S16384_S16384x1024_0 (inRange lab))
    (Host.gather gather_S1000x1024_S16384x1_S16384x1024_1_0_n_n_0_1_11024 cen (idxCol lab))
    (broadcastInDim S16384x1024 ![] bcast_S_S16384x1024 (constant S_ .f32 0x7FC00000#32))

/-- Per row: the sum over the columns of the squared difference to the gathered centre. -/
def rowDist (x : FVec F S16384x1024 .f32) (lab : IVec S16384 32) (cen : FVec F S1000x1024 .f32) : FVec F S16384 .f32 :=
  Host.reduceAdd (mulf (subf x (gathered lab cen)) (subf x (gathered lab cen))) (constant S_ .f32 0x00000000#32)
    reducesTo_S16384x1024_S16384_d1 h_S_

/-- Per class: the row distances accumulated at the label words, from zero. -/
def perClass (x : FVec F S16384x1024 .f32) (lab : IVec S16384 32) (cen : FVec F S1000x1024 .f32) : FVec F S1000 .f32 :=
  Host.scatterAdd scatter_S1000_S16384x1_S16384_n_0_0_1
    (broadcastInDim S1000 ![] bcast_S_S1000 (constant S_ .f32 0x00000000#32))
    (broadcastInDim S16384x1 ![0] bcast_S16384_S16384x1_0 lab) (rowDist x lab cen)

/-- Per class: the square root where the accumulated distance is positive (its argument replaced by one elsewhere),
    zero elsewhere. -/
def gated (pc : FVec F S1000 .f32) : FVec F S1000 .f32 :=
  select (cmpf .ogt pc (broadcastInDim S1000 ![] bcast_S_S1000 (constant S_ .f32 0x00000000#32)))
    (Host.sqrt
      (select (cmpf .ogt pc (broadcastInDim S1000 ![] bcast_S_S1000 (constant S_ .f32 0x00000000#32))) pc
        (broadcastInDim S1000 ![] bcast_S_S1000 (id (constant S_ .f32 0x3F800000#32)))))
    (broadcastInDim S1000 ![] bcast_S_S1000 (id (constant S_ .f32 0x00000000#32)))

/-- The reference's result: the gated class distances summed from zero and divided by a thousand. -/
def refTerm (x : FVec F S16384x1024 .f32) (lab : IVec S16384 32) (cen : FVec F S1000x1024 .f32) : FVec F S_ .f32 :=
  Host.divf
    (Host.reduceAdd (gated (perClass x lab cen)) (constant S_ .f32 0x00000000#32) reducesTo_S1000_S_d0 h_S_)
    (constant S_ .f32 0x447A0000#32)

end Cert.ReferenceIdeal.RefValue

end
-- ==== Proof.RefRun.lean ====
import proofs.«159336_g120259084421_cont_main3_733_4_alg».proof.Proof.RefOps
import proofs.«159336_g120259084421_cont_main3_733_4_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! The fold of the reference's operations read at the result buffer is the composed term of the three argument arrays,
and read at an argument buffer it is the argument unchanged; hence the run of the reference ends with its result at
that term. -/

/-- The fold of the fifty operations, read at the result buffer, is the composed term of the three arguments. -/
theorem out_eq (V : Valuation τ sig (Elt F)) :
    after ops V (main_v15 : DevRef τ sig)
      = refTerm (V (main_arg0 : DevRef τ sig)) (V (main_arg1 : DevRef τ sig)) (V (main_arg2 : DevRef τ sig)) := by
  unfold refTerm gated perClass rowDist gathered inRange idxCol wrapIdx
  after_results_simp
  simp only [TRef.toBuf, TRef.ofBuf, cast_eq]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- From any memory with zero counters, every weakly fair execution of the reference terminates with its result at
    the composed term of the three argument arrays, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v15)
          = refTerm (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c main_v15).trans (out_eq _), (h c main_arg0).trans (arg0_eq _),
      (h c main_arg1).trans (arg1_eq _), (h c main_arg2).trans (arg2_eq _)⟩)
    (run_main m ρ)

end Cert.ReferenceIdeal.RefValue

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.RefReadIdx.lean ====
import proofs.«159336_g120259084421_cont_main3_733_4_alg».proof.Proof.RefTerm
import proofs.«159336_g120259084421_cont_main3_733_4_alg».proof.Proof.LibBroadcastInDim
import proofs.«159336_g120259084421_cont_main3_733_4_alg».proof.Proof.LibGatherRows
import Idealize.ShloMosaic.Lib.Affine
import Idealize.ShloMosaic.PureOps.Reduce
import Idealize.ShloMosaic.Lib.ValueIdx

noncomputable section

namespace Cert.ReferenceIdeal.RefValue

open Cert.ReferenceIdeal Cert.ReferenceIdeal.Gen Idealize.ShloMosaic Idealize.ShloMosaic.ValueIdx

/-! The row lookup read at an index, for label words below the number of classes: the wrap leaves such a word
alone, the range mask is true on every row, and the looked-up row is the centre the word names. -/

/-- A word below a thousand, read signed, is its unsigned value. -/
theorem toInt_of_small (v : BitVec 32) (h : v.toNat < 1000) : v.toInt = (v.toNat : ℤ) :=
  BitVec.toInt_eq_toNat_of_lt (by omega)

/-- A conjunction of bits that are all one, started from one, is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- An and-reduction from one of an array whose every bit is one is one at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-- The wrap leaves a word below a thousand alone: read signed it is not negative. -/
theorem wrapIdx_apply (lab : IVec S16384 32) (i : S16384.Idx) (h : (lab i).toNat < 1000) : wrapIdx lab i = lab i := by
  have hn : ¬ IntOp.cmpi .slt (lab i) 0#32 = 1#1 := by
    rw [IntOp.cmpi_slt, toInt_of_small _ h]
    show ¬ ((lab i).toNat : ℤ) < 0
    omega
  show Scalar.select (IntOp.cmpi .slt (lab i) 0#32) (IntOp.addi (lab i) 1000#32) (lab i) = lab i
  exact if_neg hn

/-- Row `i` of the column of start indices is the wrapped word of row `i`. -/
theorem idxCol_apply (lab : IVec S16384 32) (i : Fin 16384) : idxCol lab (ix2 i (0 : Fin 1)) = wrapIdx lab (ix1 i) :=
  Cert.Lib.BroadcastInDim.vecAsCol_apply _ _ i

/-- Every row's start index is inside `[0, 999]`. -/
theorem inRange_apply (lab : IVec S16384 32) (hlab : ∀ i, (lab i).toNat < 1000) (j : S16384.Idx) :
    inRange lab j = 1#1 := by
  unfold inRange
  refine reduce_andi_of_all _ _ _ _ rfl (fun k => ?_) j
  obtain ⟨a, b, rfl⟩ : ∃ a b, k = ix2 a b := ⟨k 0, k 1, eq_ix2 k⟩
  obtain rfl : b = 0 := Subsingleton.elim _ _
  show IntOp.andi (IntOp.cmpi .sge (idxCol lab (ix2 a 0)) 0#32) (IntOp.cmpi .sle (idxCol lab (ix2 a 0)) 999#32) = 1#1
  rw [idxCol_apply, wrapIdx_apply _ _ (hlab _), IntOp.andi_eq_one, IntOp.cmpi_sge, IntOp.cmpi_sle,
    toInt_of_small _ (hlab _)]
  have := hlab (ix1 a)
  constructor
  · show (0 : ℤ) ≤ _
    omega
  · show _ ≤ (999 : ℤ)
    omega

/-- The class a label word below a thousand names. -/
def cls (lab : IVec S16384 32) (hlab : ∀ i, (lab i).toNat < 1000) (i : Fin 16384) : Fin 1000 :=
  ⟨(lab (ix1 i)).toNat, hlab _⟩

/-- The looked-up rows at `(i, j)`: entry `j` of the centre of the class the label word of row `i` names. -/
theorem gathered_apply (lab : IVec S16384 32) (cen : FVec Ideal S1000x1024 .f32) (hlab : ∀ i, (lab i).toNat < 1000)
    (i : Fin 16384) (j : Fin 1024) : gathered lab cen (ix2 i j) = cen (ix2 (cls lab hlab i) j) := by
  have hm : broadcastInDim S16384x1024 ![0] bcast_S16384_S16384x1024_0 (inRange lab) (ix2 i j) = 1#1 :=
    inRange_apply lab hlab _
  have hd : gather_S1000x1024_S16384x1_S16384x1024_1_0_n_n_0_1_11024
      = GatherRows.rowsDims 1000 16384 1024 gather_S1000x1024_S16384x1_S16384x1024_1_0_n_n_0_1_11024_wf := rfl
  have hc : GatherRows.clampRow 1000 (by decide) (lab (ix1 i)) = cls lab hlab i := by
    refine Fin.ext ?_
    show min (lab (ix1 i)).toInt.toNat (1000 - 1) = (lab (ix1 i)).toNat
    rw [toInt_of_small _ (hlab _)]
    have := hlab (ix1 i)
    omega
  unfold gathered
  rw [select_apply, hm, select_one, hd, GatherRows.rows_gather_apply (by decide : 0 < 1000), idxCol_apply,
    wrapIdx_apply _ _ (hlab _), hc]

end Cert.ReferenceIdeal.RefValue

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.RefReadSum.lean ====
import proofs.«159336_g120259084421_cont_main3_733_4_alg».proof.Proof.RefReadIdx
import proofs.«159336_g120259084421_cont_main3_733_4_alg».proof.Proof.LibScatterRows
import proofs.«159336_g120259084421_cont_main3_733_4_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.ValueIdx

/-! The sums of the reference read at an index: the row distances, their accumulation per class, the gate, and the
mean over the classes — each equal to the specification's term. -/

/-- Scalar updates accumulated into a flat array, on the extended reals, read at `p`: the operand's element plus the
    sum of the updates whose index word, read signed, is `p`. -/
theorem count_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

/-- The row distance at `i`: the squared distance of row `i` to the centre of the class its label word names. -/
theorem rowDist_apply (x : FVec Ideal S16384x1024 .f32) (lab : IVec S16384 32) (cen : FVec Ideal S1000x1024 .f32)
    (hlab : ∀ i, (lab i).toNat < 1000) (i : Fin 16384) :
    rowDist x lab cen (ix1 i) = Cert.CenterLoss.sqDist x cen i (cls lab hlab i) := by
  have hR : S16384x1024.Reduces [1] S16384 := by decide
  have hl : ∀ k : Fin 1024, hR.lift (ix1 i) k = ix2 i k := fun k => by
    funext a
    match a with
    | ⟨0, _⟩ => exact Fin.ext rfl
    | ⟨1, _⟩ => exact Fin.ext rfl
  show Ideal.hostReduceAdd reducesTo_S16384x1024_S16384_d1
      (mulf (subf x (gathered lab cen)) (subf x (gathered lab cen))) (Ideal.ofBits .f32 0x00000000#32) (ix1 i) = _
  rw [Ideal.hostReduceAdd_single _ hR, Ideal.ofBits_zero_f32, zero_add]
  unfold Cert.CenterLoss.sqDist
  refine Finset.sum_congr rfl fun (k : Fin 1024) _ => ?_
  rw [hl k]
  show (x (ix2 i k) - gathered lab cen (ix2 i k)) * (x (ix2 i k) - gathered lab cen (ix2 i k)) = _
  rw [gathered_apply lab cen hlab i k]

/-- The accumulated distance of class `c` is the specification's class distance. -/
theorem perClass_apply (x : FVec Ideal S16384x1024 .f32) (lab : IVec S16384 32) (cen : FVec Ideal S1000x1024 .f32)
    (hlab : ∀ i, (lab i).toNat < 1000) (c : Fin 1000) :
    perClass x lab cen (ix1 c) = Cert.CenterLoss.classDist x lab cen c := by
  have hd : scatter_S1000_S16384x1_S16384_n_0_0_1
      = ScatterRows.countDims 1000 16384 scatter_S1000_S16384x1_S16384_n_0_0_1_wf := rfl
  show Ideal.hostScatterAdd scatter_S1000_S16384x1_S16384_n_0_0_1
      (broadcastInDim S1000 ![] bcast_S_S1000 (constant (F := Ideal) S_ .f32 0x00000000#32))
      (broadcastInDim S16384x1 ![0] bcast_S16384_S16384x1_0 lab) (rowDist x lab cen) (ix1 c) = _
  rw [hd, count_scatterAdd_apply]
  have h0 : broadcastInDim S1000 ![] bcast_S_S1000 (constant (F := Ideal) S_ .f32 0x00000000#32) (ix1 c) = 0 :=
    Ideal.ofBits_zero_f32
  rw [h0, zero_add]
  unfold Cert.CenterLoss.classDist
  refine Finset.sum_congr rfl fun i _ => ?_
  rw [Cert.Lib.BroadcastInDim.vecAsCol_apply, toInt_of_small _ (hlab _)]
  by_cases hc : (lab (ix1 i)).toNat = c.val
  · have hcc : cls lab hlab i = c := Fin.ext hc
    rw [if_pos (by exact_mod_cast hc), if_pos hc, rowDist_apply x lab cen hlab i, hcc]
  · rw [if_neg (by exact_mod_cast hc), if_neg hc]

/-- The host's quotient at an index is the extended reals' division of the elements. -/
theorem hostDivf_apply {s : Shape} {φ : FTy} (a b : FVec Ideal s φ) (i : s.Idx) :
    Host.divf a b i = Ideal.div (a i) (b i) := rfl

/-- The host's float sum is the exact sum from the initial value's one element. -/
theorem hostReduceAdd_apply {s t u : Shape} {axes : List (Fin s.rank)} (x : FVec Ideal s .f32) (init : FVec Ideal u .f32)
    (h : s.ReducesTo axes t) (hu : 0 < u.numel) (j : t.Idx) :
    Host.reduceAdd x init h hu j = Ideal.hostReduceAdd h x (init (Shape.Idx.first hu)) j := rfl

/-- The gated value at a class is the specification's gate of the class's accumulated distance. -/
theorem gated_apply (pc : FVec Ideal S1000 .f32) (c : S1000.Idx) : gated pc c = Cert.CenterLoss.gate (pc c) := rfl

/-- The reference's result is the centre loss, when every label word is below the number of classes. -/
theorem refTerm_eq_loss (x : Cert.CenterLoss.SX.Idx → EReal) (lab : Cert.CenterLoss.SL.Idx → BitVec 32)
    (cen : Cert.CenterLoss.SC.Idx → EReal) (hlab : ∀ i, (lab i).toNat < 1000) :
    refTerm (F := Ideal) x lab cen = fun _ => Cert.CenterLoss.loss x lab cen := by
  funext j
  unfold refTerm
  rw [hostDivf_apply, hostReduceAdd_apply, Ideal.hostReduceAdd_total _ (fun b => b.elim0)]
  simp only [constant_apply]
  rw [Ideal.ofBits_zero_f32, zero_add, ScatterRows.sum_idx1]
  unfold Cert.CenterLoss.loss
  refine congrArg (fun s => Ideal.div s Cert.CenterLoss.thousandF) ?_
  refine Finset.sum_congr rfl fun k _ => ?_
  rw [gated_apply, perClass_apply x lab cen hlab]

end Cert.ReferenceIdeal.RefValue

end
-- ==== Proof.PreFacts.lean ====
/-
  What the precondition says of the three argument arrays.

  The predicate is the conjunction of four tests, each a conjunction over every entry of an array: the absolute value of
  every entry of the batch is below plus infinity; likewise every entry of the centres; every label word is at least
  zero, read signed; every label word is below one thousand, read signed. An extended real whose absolute value is below
  plus infinity is a real number, and a word in [0, 1000) read signed is below 1000 read unsigned.
-/
import proofs.«159336_g120259084421_cont_main3_733_4_alg».proof.Proof.Spec
import proofs.«159336_g120259084421_cont_main3_733_4_alg».proof.Proof.Gen.Pre_finite_inputs
import Idealize.ShloMosaic.Lib.ReduceAll

noncomputable section

namespace Cert.CenterLoss.PreFacts

open Idealize.ShloMosaic Idealize.ShloMosaic.ValueIdx

/-- The scalar shape has one index. -/
instance : Subsingleton Cert.Pre_finite_inputs.S_.Idx := ⟨fun a b => funext fun d => d.elim0⟩

/-- The word of plus infinity is plus infinity. -/
theorem ofBits_inf : Ideal.ofBits .f32 0x7F800000#32 = (⊤ : EReal) := by
  simp [Ideal.ofBits, Ideal.ieee]

/-- An extended real whose absolute value is below plus infinity is a real number. -/
theorem real_of_abs_lt (v : EReal) (h : Ideal.cmp .olt (max v (-v)) (⊤ : EReal) = 1#1) : ∃ r : ℝ, v = (r : EReal) := by
  induction v using EReal.rec with
  | bot => simp [Ideal.cmp] at h
  | coe r => exact ⟨r, rfl⟩
  | top => simp [Ideal.cmp] at h

/-- A word in [0, n) read signed is below n read unsigned. -/
theorem toNat_lt (w : BitVec 32) (h0 : (0#32).toInt ≤ w.toInt) (h1 : w.toInt < (1000#32).toInt) : w.toNat < 1000 := by
  have e0 : (0#32 : BitVec 32).toInt = 0 := by decide
  have e1 : (1000#32 : BitVec 32).toInt = 1000 := by decide
  rw [e0] at h0; rw [e1] at h1
  have h32 := w.isLt
  rw [BitVec.toInt_eq_toNat_cond] at h0 h1
  split at h1 <;> omega

theorem pre_decode [Cert.Pre_finite_inputs.Facts] (x : SX.Idx → EReal) (lab : SL.Idx → BitVec 32) (cen : SC.Idx → EReal)
    (h : Cert.Pre_finite_inputs.fn (F := Ideal) x lab cen = fun _ => 1#1) :
    (∀ i, ∃ r : ℝ, x i = (r : EReal)) ∧ (∀ i, ∃ r : ℝ, cen i = (r : EReal)) ∧ (∀ i, (lab i).toNat < 1000) := by
  have e := congrFun h ValueIdx.ix0
  dsimp only [Cert.Pre_finite_inputs.fn, Cert.Pre_finite_inputs.fn_part1] at e
  simp only [andi, IntOp.andi_eq_one] at e
  obtain ⟨⟨⟨hx, hc⟩, hl0⟩, hl1⟩ := e
  refine ⟨fun i => ?_, fun i => ?_, fun i => ?_⟩
  · have := Host.reduce_andi_all _ _ _ _ _ hx i
    simp only [cmpf, Host.absf, broadcastInDim, constant] at this
    exact real_of_abs_lt (x i) (by rw [← ofBits_inf]; exact this)
  · have := Host.reduce_andi_all _ _ _ _ _ hc i
    simp only [cmpf, Host.absf, broadcastInDim, constant] at this
    exact real_of_abs_lt (cen i) (by rw [← ofBits_inf]; exact this)
  · have a := Host.reduce_andi_all _ _ _ _ _ hl0 i
    have b := Host.reduce_andi_all _ _ _ _ _ hl1 i
    simp only [cmpi, broadcastInDim, constantI] at a b
    exact toNat_lt (lab i) (IntOp.cmpi_sge.1 a) (IntOp.cmpi_slt.1 b)

end Cert.CenterLoss.PreFacts

end
-- ==== Proof.AlgReal.lean ====
/-
  The expanded square, over the reals.

  For weights `a i` on the rows of a matrix `x` and one vector `c`, the weighted sum of the squared distances of the
  rows to `c` is the weighted sum of the squared norms, minus twice the inner product of the weighted row sum with `c`,
  plus the total weight times the squared norm of `c`.
-/
import Mathlib.Algebra.BigOperators.Ring.Finset
import Mathlib.Algebra.BigOperators.Group.Finset.Basic
import Mathlib.Algebra.BigOperators.Group.Finset.Sigma
import Mathlib.Data.Real.Basic
import Mathlib.Tactic.Ring

namespace Cert.CenterLoss.Alg

open Finset

/-- One row: the squared distance to `c` expanded. -/
theorem row_expand {κ : Type*} [Fintype κ] (x c : κ → ℝ) :
    ∑ j, (x j - c j) * (x j - c j) = (∑ j, x j * x j) - 2 * (∑ j, x j * c j) + ∑ j, c j * c j := by
  rw [Finset.mul_sum, ← Finset.sum_sub_distrib, ← Finset.sum_add_distrib]
  exact Finset.sum_congr rfl fun j _ => by ring

/-- The expanded square, weighted over the rows. -/
theorem expand_sq {ι κ : Type*} [Fintype ι] [Fintype κ] (a : ι → ℝ) (x : ι → κ → ℝ) (c : κ → ℝ) :
    ((∑ i, a i * ∑ j, x i j * x i j) - 2 * (∑ j, (∑ i, a i * x i j) * c j)) + (∑ i, a i * 1) * (∑ j, c j * c j)
      = ∑ i, a i * ∑ j, (x i j - c j) * (x i j - c j) := by
  have h2 : (∑ j, (∑ i, a i * x i j) * c j) = ∑ i, a i * ∑ j, x i j * c j := by
    simp_rw [Finset.sum_mul, Finset.mul_sum]
    rw [Finset.sum_comm]
    exact Finset.sum_congr rfl fun i _ => Finset.sum_congr rfl fun j _ => by ring
  rw [h2]
  simp_rw [row_expand]
  rw [Finset.sum_mul, Finset.mul_sum, ← Finset.sum_sub_distrib, ← Finset.sum_add_distrib]
  exact Finset.sum_congr rfl fun i _ => by ring

end Cert.CenterLoss.Alg
-- ==== Proof.AlgLoss.lean ====
/-
  The kernel's arrangement of the centre loss is the centre loss.

  With every entry of the batch and of the centres a real number and every label below 1000: for a class `c < 1000` the
  padded centre is the centre and the expanded square (sum of squared norms, minus twice the inner product of the summed
  rows with the centre, plus the count times the centre's squared norm) is the summed squared distance — an identity of
  real numbers, moved to the extended reals by pushing the coercion through the finite sums; for a padded class
  `c ≥ 1000` no label lands on it, every indicator is zero, the expanded square is zero and its gate is zero. The sum over
  the 1024 padded classes splits into the first 1000 and the last 24.
-/
import proofs.«159336_g120259084421_cont_main3_733_4_alg».proof.Proof.Spec
import proofs.«159336_g120259084421_cont_main3_733_4_alg».proof.Proof.AlgReal

noncomputable section

namespace Cert.CenterLoss.Alg

open Idealize.ShloMosaic Idealize.ShloMosaic.ValueIdx

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The expanded square with every entry a coerced real. -/
theorem expand_sq_coe {ι κ : Type*} [Fintype ι] [Fintype κ] (a : ι → ℝ) (x : ι → κ → ℝ) (c : κ → ℝ) :
    ((∑ i, (a i : EReal) * ∑ j, (x i j : EReal) * (x i j : EReal))
        - ((2 : ℝ) : EReal) * (∑ j, (∑ i, (a i : EReal) * (x i j : EReal)) * (c j : EReal)))
      + (∑ i, (a i : EReal) * ((1 : ℝ) : EReal)) * (∑ j, (c j : EReal) * (c j : EReal))
      = ((∑ i, a i * ∑ j, (x i j - c j) * (x i j - c j) : ℝ) : EReal) := by
  rw [← expand_sq]
  simp only [EReal.coe_add, EReal.coe_sub, EReal.coe_mul, coe_sum]

/-- The float two is the real two, the float one the real one. -/
theorem twoF_eq : twoF = ((2 : ℝ) : EReal) := by
  simp [twoF, Ideal.ofBits, Ideal.ieee]
  rw [← EReal.coe_mul]
  exact congrArg Real.toEReal (by norm_num)
theorem oneF_eq : oneF = ((1 : ℝ) : EReal) := by
  simp [oneF, Ideal.ofBits, Ideal.ieee]
  rw [← EReal.coe_mul, ← EReal.coe_one]
  exact congrArg Real.toEReal (by norm_num)

/-- The indicator as a real number. -/
def hotR (l : BitVec 32) (c : Nat) : ℝ := if l.toNat = c then 1 else 0

theorem hot_eq (l : BitVec 32) (c : Fin 1024) : hot l c = ((hotR l c.val : ℝ) : EReal) := by
  unfold hot hotR
  split_ifs <;> simp

/-- A real class: the expanded square is the summed squared distance. -/
theorem kerClass_lt (xr : SX.Idx → ℝ) (lab : SL.Idx → BitVec 32) (cr : SC.Idx → ℝ) (c : Fin 1024) (hc : c.val < 1000) :
    kerClass (fun i => (xr i : EReal)) lab (fun i => (cr i : EReal)) c
      = classDist (fun i => (xr i : EReal)) lab (fun i => (cr i : EReal)) ⟨c.val, hc⟩ := by
  have hp : ∀ j, padCen (fun i => (cr i : EReal)) c j = ((cr (ix2 (⟨c.val, hc⟩ : Fin 1000) j) : ℝ) : EReal) := by
    intro j; unfold padCen; rw [dif_pos hc]
  unfold kerClass classDist sumSq sumRows count rowSq sqDist
  simp only [hp, hot_eq, twoF_eq, oneF_eq]
  rw [expand_sq_coe (fun i => hotR (lab (ix1 i)) c.val) (fun i j => xr (ix2 i j)) (fun j => cr (ix2 (⟨c.val, hc⟩ : Fin 1000) j))]
  rw [coe_sum]
  refine Finset.sum_congr rfl fun i _ => ?_
  unfold hotR
  by_cases h : (lab (ix1 i)).toNat = c.val
  · rw [if_pos h, if_pos h, one_mul, coe_sum]
    simp only [EReal.coe_mul, EReal.coe_sub]
  · rw [if_neg h, if_neg h, zero_mul, EReal.coe_zero]

/-- A padded class: no label lands on it, and the expanded square is zero. -/
theorem kerClass_ge (x : SX.Idx → EReal) (lab : SL.Idx → BitVec 32) (cen : SC.Idx → EReal)
    (hlab : ∀ i, (lab i).toNat < 1000) (c : Fin 1024) (hc : 1000 ≤ c.val) : kerClass x lab cen c = 0 := by
  have hh : ∀ i, hot (lab (ix1 i)) c = 0 := by
    intro i; unfold hot; rw [if_neg]; have := hlab (ix1 i); omega
  have hp : ∀ j, padCen cen c j = 0 := by
    intro j; unfold padCen; rw [dif_neg (by omega)]
  unfold kerClass sumSq sumRows count
  simp only [hh, hp, zero_mul, mul_zero, Finset.sum_const_zero, sub_zero, add_zero]

/-- The gate of zero is zero. -/
theorem gate_zero : gate 0 = 0 := by
  simp [gate, Ideal.cmp, Scalar.select]

theorem kerLoss_eq_loss (x : SX.Idx → EReal) (lab : SL.Idx → BitVec 32) (cen : SC.Idx → EReal)
    (hx : ∀ i, ∃ r : ℝ, x i = (r : EReal)) (hc : ∀ i, ∃ r : ℝ, cen i = (r : EReal)) (hlab : ∀ i, (lab i).toNat < 1000) :
    kerLoss x lab cen = loss x lab cen := by
  choose xr hxr using hx
  choose cr hcr using hc
  obtain rfl : x = fun i => (xr i : EReal) := funext hxr
  obtain rfl : cen = fun i => (cr i : EReal) := funext hcr
  unfold kerLoss loss
  refine congrArg (fun s => Ideal.div s thousandF) ?_
  have key : ∀ g : Fin 1024 → EReal,
      ∑ c : Fin 1024, g c = ∑ c : Fin 1000, g (Fin.castAdd 24 c) + ∑ c : Fin 24, g (Fin.natAdd 1000 c) :=
    fun g => Fin.sum_univ_add (a := 1000) (b := 24) g
  rw [key]
  have h2 : ∑ c : Fin 24, gate (kerClass (fun i => (xr i : EReal)) lab (fun i => (cr i : EReal)) (Fin.natAdd 1000 c)) = 0 := by
    refine Finset.sum_eq_zero fun c _ => ?_
    rw [kerClass_ge _ lab _ hlab _ (by simp [Fin.natAdd]), gate_zero]
  rw [h2, add_zero]
  refine Finset.sum_congr rfl fun c _ => ?_
  rw [kerClass_lt xr lab cr (Fin.castAdd 24 c) (by simp [Fin.castAdd])]
  rfl

end Cert.CenterLoss.Alg

end
-- ==== Proof.lean ====
/-
  The centre loss of a batch against class centres: for x of 16384 rows and width 1024, one class label per row with
  0 ≤ label < 1000, and 1000 centres of width 1024 (all entries finite),

      loss = ( ∑_{c < 1000} gate ( ∑_{i : label i = c} ∑_j (x i j - centre c j)² ) ) / 1000,

  where gate p is √p for p > 0 and 0 otherwise. The reference gathers each row's centre, sums the squared differences
  along a row, scatters the row sums into their classes, gates and averages. The kernel never gathers: over 32 blocks
  of 512 rows it accumulates, per class of 1024 (the 1000 classes padded by 24 zero centres), the sum of the class's
  rows, the sum of their squared norms and their number, by products with the one-hot matrix of the block's labels,
  and at the last block expands the square,

      ∑_{i ∈ c} ‖x_i - centre_c‖² = ∑_{i ∈ c} ‖x_i‖² - 2 ⟨∑_{i ∈ c} x_i, centre_c⟩ + |c| ‖centre_c‖²,

  gates, sums over the 1024 padded classes and divides by 1000. On the extended reals the two agree exactly where the
  entries are finite (the expansion uses distributivity, which fails at the infinities) and the labels are in range
  (a label in [1000, 1024) would land on a padded class in the kernel and nowhere in the reference): the padded
  classes then hold no row, their distance is 0 and their gate 0.

  The parts: Spec (the loss in both arrangements); KerPieces, KerOut, KerAcc (what each grid point leaves in the
  two accumulators and, at the last point, in the output block); KerReadS, KerReadA, KerReadOut (the body's arithmetic
  entry by entry); KerBlocks (the blocks as rows of the arguments); KerSum (the accumulators after all points as sums
  over all rows); KerFinal (the kernel's run ends at the kernel's arrangement of the loss); RefOps, RefTerm, RefRun
  (the reference's run ends at its operations' composed term); RefReadIdx, RefReadSum (that term is the loss);
  PreFacts (what the precondition says); AlgReal, AlgLoss (the two arrangements are equal).
-/
import proofs.«159336_g120259084421_cont_main3_733_4_alg».proof.Defs
import proofs.«159336_g120259084421_cont_main3_733_4_alg».proof.Proof.Gen.Kernel
import proofs.«159336_g120259084421_cont_main3_733_4_alg».proof.Proof.Gen.Kernel.Skeleton
import proofs.«159336_g120259084421_cont_main3_733_4_alg».proof.Proof.Gen.Kernel.Launch
import proofs.«159336_g120259084421_cont_main3_733_4_alg».proof.Proof.Gen.Kernel.Points
import proofs.«159336_g120259084421_cont_main3_733_4_alg».proof.Proof.Gen.Kernel.Frame
import proofs.«159336_g120259084421_cont_main3_733_4_alg».proof.Proof.Gen.KernelIdeal
import proofs.«159336_g120259084421_cont_main3_733_4_alg».proof.Proof.Gen.KernelIdeal.Skeleton
import proofs.«159336_g120259084421_cont_main3_733_4_alg».proof.Proof.Gen.KernelIdeal.Launch
import proofs.«159336_g120259084421_cont_main3_733_4_alg».proof.Proof.Gen.KernelIdeal.Points
import proofs.«159336_g120259084421_cont_main3_733_4_alg».proof.Proof.Gen.KernelIdeal.Frame
import proofs.«159336_g120259084421_cont_main3_733_4_alg».proof.Proof.Gen.ReferenceIdeal
import proofs.«159336_g120259084421_cont_main3_733_4_alg».proof.Proof.Gen.Pre_finite_inputs
import proofs.«159336_g120259084421_cont_main3_733_4_alg».proof.Proof.KerFinal
import proofs.«159336_g120259084421_cont_main3_733_4_alg».proof.Proof.RefRun
import proofs.«159336_g120259084421_cont_main3_733_4_alg».proof.Proof.RefReadSum
import proofs.«159336_g120259084421_cont_main3_733_4_alg».proof.Proof.PreFacts
import proofs.«159336_g120259084421_cont_main3_733_4_alg».proof.Proof.AlgLoss
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Nothing of the kernel was rewritten to read it on the extended reals. -/
theorem preserves : Cert.preserves_Kernel_KernelIdeal := trivial

/-- The kernel ends at its arrangement of the loss, the reference at its own; under the precondition — finite
    entries, labels in range — the two arrangements are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.CenterLoss.kerLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hx, hc, hl⟩ := Cert.CenterLoss.PreFacts.pre_decode _ _ _ (hpre c)
  rw [Cert.ReferenceIdeal.RefValue.refTerm_eq_loss _ _ _ hl]
  exact funext fun _ => (Cert.CenterLoss.Alg.kerLoss_eq_loss _ _ _ hx hc hl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
